-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_768" .f32 0x3AAAAAAB#32 ((1 / 768 : ℝ) : EReal)
  ∧ IdealRules.named_const.Statement Cert.KernelIdeal.κ "inv_768" .f32 0x3AAAAAAB#32 ((1 / 768 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x768 : Shape := ⟨3, ![4, 4096, 768]⟩
abbrev S4096x768 : Shape := ⟨2, ![4096, 768]⟩
abbrev S768 : Shape := ⟨1, ![768]⟩
abbrev S_ : Shape := ⟨0, ![]⟩

class Facts : Prop where
  bcast_S_S4x4096x768 : S_.BroadcastsInDim S4x4096x768 (![] : Fin 0 → Fin S4x4096x768.rank)
  reducesTo_S4x4096x768_S_d0_1_2 : S4x4096x768.ReducesTo [0, 1, 2] S_
  h_S_ : 0 < S_.numel
  bcast_S_S4096x768 : S_.BroadcastsInDim S4096x768 (![] : Fin 0 → Fin S4096x768.rank)
  reducesTo_S4096x768_S_d0_1 : S4096x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S4x4096x768 .f32) (main_arg1 : FVec F S4096x768 .f32) (main_arg2 : FVec F S768 .f32) (main_arg3 : FVec F S768 .f32) : IVec S_ 1 :=
  let main_v0 : FVec F S4x4096x768 .f32 := Host.absf main_arg0
  let main_cst : FVec F S_ .f32 := constant S_ .f32 0x7F800000#32
  let main_v1 : FVec F S4x4096x768 .f32 := broadcastInDim S4x4096x768 ![] bcast_S_S4x4096x768 main_cst
  let main_v2 : IVec S4x4096x768 1 := cmpf .olt main_v0 main_v1
  let main_c : IVec S_ 1 := constantI S_ 1 1#1
  let main_v3 : IVec S_ 1 := (fun x v => Host.reduce IntOp.andi x v reducesTo_S4x4096x768_S_d0_1_2 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S4x4096x768 : Shape := ⟨3, ![4, 4096, 768]⟩
abbrev S4096x768 : Shape := ⟨2, ![4096, 768]⟩
abbrev S768 : Shape := ⟨1, ![768]⟩
abbrev S1x1x768 : Shape := ⟨3, ![1, 1, 768]⟩
abbrev S1x4096x768 : Shape := ⟨3, ![1, 4096, 768]⟩
abbrev S4x512x768 : Shape := ⟨3, ![4, 512, 768]⟩
abbrev S1x512x768 : Shape := ⟨3, ![1, 512, 768]⟩
abbrev S4x512 : Shape := ⟨2, ![4, 512]⟩
abbrev S4x512x1 : Shape := ⟨3, ![4, 512, 1]⟩

abbrev nBuf : Space → Nat
  | .hbm => 8
  | .vmem => 8
  | .smem => 0
  | _ => 0

abbrev bufTy : (tb : Table) → Fin (tcTables nBuf tb) → BufTy
  | .hbm, ⟨0, _⟩ => ⟨S4x4096x768, .f32⟩
  | .hbm, ⟨1, _⟩ => ⟨S4096x768, .f32⟩
  | .hbm, ⟨2, _⟩ => ⟨S768, .f32⟩
  | .hbm, ⟨3, _⟩ => ⟨S768, .f32⟩
  | .hbm, ⟨4, _⟩ => ⟨S1x1x768, .f32⟩
  | .hbm, ⟨5, _⟩ => ⟨S1x1x768, .f32⟩
  | .hbm, ⟨6, _⟩ => ⟨S1x4096x768, .f32⟩
  | .hbm, ⟨7, _⟩ => ⟨S4x4096x768, .f32⟩
  | .local _ .vmem, ⟨0, _⟩ => ⟨S4x512x768, .f32⟩
  | .local _ .vmem, ⟨1, _⟩ => ⟨S4x512x768, .f32⟩
  | .local _ .vmem, ⟨2, _⟩ => ⟨S1x512x768, .f32⟩
  | .local _ .vmem, ⟨3, _⟩ => ⟨S1x512x768, .f32⟩
  | .local _ .vmem, ⟨4, _⟩ => ⟨S1x1x768, .f32⟩
  | .local _ .vmem, ⟨5, _⟩ => ⟨S1x1x768, .f32⟩
  | .local _ .vmem, ⟨6, _⟩ => ⟨S4x512x768, .f32⟩
  | .local _ .vmem, ⟨7, _⟩ => ⟨S4x512x768, .f32⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S768_S1x1x768 : S768.ShapeCasts S1x1x768
  shapeCasts_S4096x768_S1x4096x768 : S4096x768.ShapeCasts S1x4096x768
  inb_S4x512x768_S4x512x768_0_0_0 : ∀ a, (![0, 0, 0] : Fin 3 → Nat) a + S4x512x768.size a ≤ S4x512x768.size a
  h_S4x512x768 : 0 < S4x512x768.numel
  inb_S1x512x768_S1x512x768_0_0_0 : ∀ a, (![0, 0, 0] : Fin 3 → Nat) a + S1x512x768.size a ≤ S1x512x768.size a
  h_S1x512x768 : 0 < S1x512x768.numel
  shapeCasts_S1x512x768_S1x512x768 : S1x512x768.ShapeCasts S1x512x768
  broadcasts_S1x512x768_S4x512x768 : S1x512x768.Broadcasts S4x512x768
  reduces_S4x512x768_S4x512 : S4x512x768.Reduces [2] S4x512
  shapeCasts_S4x512_S4x512x1 : S4x512.ShapeCasts S4x512x1
  broadcasts_S4x512x1_S4x512x768 : S4x512x1.Broadcasts S4x512x768
  inb_S1x1x768_S1x1x768_0_0_0 : ∀ a, (![0, 0, 0] : Fin 3 → Nat) a + S1x1x768.size a ≤ S1x1x768.size a
  h_S1x1x768 : 0 < S1x1x768.numel
  shapeCasts_S1x1x768_S1x1x768 : S1x1x768.ShapeCasts S1x1x768
  broadcasts_S1x1x768_S4x512x768 : S1x1x768.Broadcasts S4x512x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x768.size a ≤ S4x4096x768.size a
  hwx0_0 : ∀ i : grid0.Coords, EltTy.bits .f32 = 32 ∨ (Rect.block (s := S4x4096x768) S4x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x768.size a ≤ S1x4096x768.size a
  hwx0_1 : ∀ i : grid0.Coords, EltTy.bits .f32 = 32 ∨ (Rect.block (s := S1x4096x768) S1x512x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x768.size a ≤ S1x1x768.size a
  hwx0_2 : ∀ i : grid0.Coords, EltTy.bits .f32 = 32 ∨ (Rect.block (s := S1x1x768) S1x1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x768.size a ≤ S1x1x768.size a
  hwx0_3 : ∀ i : grid0.Coords, EltTy.bits .f32 = 32 ∨ (Rect.block (s := S1x1x768) S1x1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512x768.size a ≤ S4x4096x768.size a
  hwx0_4 : ∀ i : grid0.Coords, EltTy.bits .f32 = 32 ∨ (Rect.block (s := S4x4096x768) S4x512x768.size (cc0_transform_4 i) (hinb0_4 i)).WholeWords (EltTy.packing .f32)

variable [Facts₀]

abbrev win0_0 : Pipeline.Window sig grid0 :=
  Pipeline.Window.ofSpec (Memref.whole main_arg0) S4x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4x512x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x768 : Shape := ⟨3, ![4, 4096, 768]⟩
abbrev S4096x768 : Shape := ⟨2, ![4096, 768]⟩
abbrev S768 : Shape := ⟨1, ![768]⟩
abbrev S1x4096x768 : Shape := ⟨3, ![1, 4096, 768]⟩
abbrev S_ : Shape := ⟨0, ![]⟩
abbrev S4x4096 : Shape := ⟨2, ![4, 4096]⟩
abbrev S4x4096x1 : Shape := ⟨3, ![4, 4096, 1]⟩
abbrev S1x1x768 : Shape := ⟨3, ![1, 1, 768]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S4096x768, .f32⟩
  | .hbm, ⟨2, _⟩ => ⟨S768, .f32⟩
  | .hbm, ⟨3, _⟩ => ⟨S768, .f32⟩
  | .hbm, ⟨4, _⟩ => ⟨S4096x768, .f32⟩
  | .hbm, ⟨5, _⟩ => ⟨S1x4096x768, .f32⟩
  | .hbm, ⟨6, _⟩ => ⟨S4x4096x768, .f32⟩
  | .hbm, ⟨7, _⟩ => ⟨S4x4096x768, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x768, .f32⟩
  | .hbm, ⟨15, _⟩ => ⟨S4x4096x768, .f32⟩
  | .hbm, ⟨16, _⟩ => ⟨S4x4096x768, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x768, .f32⟩
  | .hbm, ⟨24, _⟩ => ⟨S4x4096x768, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x768, .f32⟩
  | .hbm, ⟨30, _⟩ => ⟨S4x4096x768, .f32⟩
  | .hbm, ⟨31, _⟩ => ⟨S1x1x768, .f32⟩
  | .hbm, ⟨32, _⟩ => ⟨S4x4096x768, .f32⟩
  | .hbm, ⟨33, _⟩ => ⟨S4x4096x768, .f32⟩
  | .hbm, ⟨34, _⟩ => ⟨S1x1x768, .f32⟩
  | .hbm, ⟨35, _⟩ => ⟨S4x4096x768, .f32⟩
  | .hbm, ⟨36, _⟩ => ⟨S4x4096x768, .f32⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  slices_S4096x768_S4096x768_0_0 : S4096x768.Slices ![0, 0] S4096x768
  bcast_S4096x768_S1x4096x768_1_2 : S4096x768.BroadcastsInDim S1x4096x768 (![1, 2] : Fin 2 → Fin S1x4096x768.rank)
  bcast_S1x4096x768_S4x4096x768_0_1_2 : S1x4096x768.BroadcastsInDim S4x4096x768 (![0, 1, 2] : Fin 3 → Fin S4x4096x768.rank)
  reducesTo_S4x4096x768_S4x4096_d2 : S4x4096x768.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x768_0_1_2 : S4x4096x1.BroadcastsInDim S4x4096x768 (![0, 1, 2] : Fin 3 → Fin S4x4096x768.rank)
  bcast_S768_S1x1x768_2 : S768.BroadcastsInDim S1x1x768 (![2] : Fin 1 → Fin S1x1x768.rank)
  bcast_S1x1x768_S4x4096x768_0_1_2 : S1x1x768.BroadcastsInDim S4x4096x768 (![0, 1, 2] : Fin 3 → Fin S4x4096x768.rank)

variable [Facts₀]

class Facts : Prop extends Facts₀ where

variable [Facts]
-- ==== Proof.LibLayerNorm.lean ====
/-
  A row normalised to zero mean and unit variance, in the two ways programs spell it, over the extended reals.

  For a row `x : Fin n → EReal` write `S = ∑ x` and `Q = ∑ x²`.
  * BY MOMENTS: the mean is `S · c`, the variance `Q · c − (S · c)²`  (one pass over the row; `c` stands for `1/n`).
  * BY DEVIATIONS: the mean is `μ = (z + S) / d`, the variance `(z + ∑ (x − μ)²) / d`  (two passes; `d` stands for `n`,
    `z` for the value a sum is started from, and `/` is the exact quotient `Ideal.div`).
  Either way the entry is `(x k − mean) · rsqrt (variance + e)`.

  For a row of REAL numbers, `z = 0`, `d = n` and `c = 1/n` the two agree: `∑ (x − μ)² = Q − 2 μ S + n μ²` and `S = n μ`,
  so the mean of the squared deviations is `Q/n − μ²`. The expansion distributes a product over a sum, which is
  why the row has to be real: with an infinite entry the two spellings differ.
-/
import Idealize.ShloMosaic.PureOps.Ideal

noncomputable section

open scoped BigOperators

namespace LayerNorm

open Idealize.ShloMosaic

/-- The cast of a finite real sum is the sum of the casts. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {n : Nat}

/-- Entry `k` of the row normalised BY MOMENTS: mean `S · c`, variance `Q · c − (S · c)²`. -/
def byMoments (c e : EReal) (x : Fin n → EReal) (k : Fin n) : EReal :=
  (x k - (∑ j, x j) * c) * Ideal.rsqrt (((∑ j, x j * x j) * c - ((∑ j, x j) * c) * ((∑ j, x j) * c)) + e)

/-- Entry `k` of the row normalised BY DEVIATIONS: mean `μ = (z + S) / d`, variance `(z + ∑ (x − μ)²) / d`. -/
def byDeviations (z d e : EReal) (x : Fin n → EReal) (k : Fin n) : EReal :=
  (x k - Ideal.div (z + ∑ j, x j) d)
    * Ideal.rsqrt (Ideal.div (z + ∑ j, (x j - Ideal.div (z + ∑ j, x j) d) * (x j - Ideal.div (z + ∑ j, x j) d)) d + e)

/-- The real identity behind it: the mean of the squared deviations from the mean is the mean of the squares minus
    the squared mean. -/
theorem mean_sq_dev (hn : (n : ℝ) ≠ 0) (r : Fin n → ℝ) :
    (∑ j, (r j - (∑ i, r i) * (1 / (n : ℝ))) * (r j - (∑ i, r i) * (1 / (n : ℝ)))) * (1 / (n : ℝ))
      = (∑ j, r j * r j) * (1 / (n : ℝ)) - ((∑ i, r i) * (1 / (n : ℝ))) * ((∑ i, r i) * (1 / (n : ℝ))) := by
  set S := ∑ i, r i with hS
  set μ := S * (1 / (n : ℝ)) with hμ
  have hSμ : S = (n : ℝ) * μ := by rw [hμ]; field_simp
  have expand : ∑ j, (r j - μ) * (r j - μ) = (∑ j, r j * r j) - 2 * μ * S + (n : ℝ) * (μ * μ) := by
    have : ∀ j, (r j - μ) * (r j - μ) = r j * r j - 2 * μ * r j + μ * μ := fun j => by ring
    simp only [this, Finset.sum_add_distrib, Finset.sum_sub_distrib, ← Finset.mul_sum, Finset.sum_const,
      Finset.card_univ, Fintype.card_fin, nsmul_eq_mul, ← hS]
    ring
  rw [expand, hSμ]
  field_simp
  ring

/-- FOR A REAL ROW the two spellings agree, sums started from `0`, the quotient by `n`, the product with `1/n`. -/
theorem byDeviations_eq_byMoments (hn : (n : ℝ) ≠ 0) (e : EReal) (x : Fin n → EReal)
    (hx : ∀ k, ∃ r : ℝ, x k = (r : EReal)) (k : Fin n) :
    byDeviations 0 (((n : ℝ)) : EReal) e x k = byMoments (((1 / (n : ℝ) : ℝ)) : EReal) e x k := by
  choose r hr using hx
  obtain rfl : x = fun j => (r j : EReal) := funext hr
  unfold byDeviations byMoments
  simp only [zero_add, Ideal.div_coe hn]
  -- everything under the square root is a real number: move the casts outwards
  have hS : (∑ j, (r j : EReal)) = ((∑ j, r j : ℝ) : EReal) := (coe_sum _ _).symm
  have hQ : (∑ j, (r j : EReal) * (r j : EReal)) = ((∑ j, r j * r j : ℝ) : EReal) := by
    rw [coe_sum]; exact Finset.sum_congr rfl fun j _ => (EReal.coe_mul _ _).symm
  have hD : (∑ j, ((r j : EReal) - ((∑ i, r i : ℝ) : EReal) * ((1 / (n : ℝ) : ℝ) : EReal))
        * ((r j : EReal) - ((∑ i, r i : ℝ) : EReal) * ((1 / (n : ℝ) : ℝ) : EReal)))
      = ((∑ j, (r j - (∑ i, r i) * (1 / (n : ℝ))) * (r j - (∑ i, r i) * (1 / (n : ℝ))) : ℝ) : EReal) := by
    refine Eq.trans (Finset.sum_congr rfl fun j _ => ?_)
      (coe_sum Finset.univ fun j => (r j - (∑ i, r i) * (1 / (n : ℝ))) * (r j - (∑ i, r i) * (1 / (n : ℝ)))).symm
    rw [← EReal.coe_mul, ← EReal.coe_sub, ← EReal.coe_mul]
  rw [hS, hD, hQ]
  simp only [← EReal.coe_mul, ← EReal.coe_sub]
  rw [mean_sq_dev hn r]

end LayerNorm

end
-- ==== Proof.Spec.lean ====
/-
  What both programs compute, as ONE function of the four argument arrays, entry by entry over the extended reals.

  `x` is the input `[4, 4096, 768]`, `p` the position table `[4096, 768]`, `g` and `h` the scale and the shift `[768]`.
  Row `(b, s)` of the sum is `k ↦ x (b, s, k) + p (s, k)`; the result's entry `(b, s, w)` is that row normalised to zero
  mean and unit variance (LibLayerNorm.lean), read at `w`, times `g w`, plus `h w`.
  `out` takes the row's variance from its moments, with means as products by `1/768`; `outDev` takes it from the
  squared deviations, with means as quotients by the value of the word `768.0` and sums started from the zero word.
-/
import Idealize.ShloMosaic.PureOps.Ideal
import Idealize.ShloMosaic.PureOps.Ideal.Laws
import Idealize.ShloMosaic.Lib.ValueIdx
import proofs.«123902_g26903675142355_cont_9to1_122_16_alg».proof.Proof.LibLayerNorm

noncomputable section

namespace Cert.Spec

open Idealize.ShloMosaic Idealize.ShloMosaic.ValueIdx

/-- The word of `1e-12` in f32, the same in both programs: never evaluated. -/
abbrev eps : EReal := Ideal.ofBits .f32 0x2B8CBCCC#32

/-- Row `(b, s)` of input plus position embedding. -/
def row (x : (⟨3, ![4, 4096, 768]⟩ : Shape).Idx → EReal) (p : (⟨2, ![4096, 768]⟩ : Shape).Idx → EReal)
    (b : Fin 4) (s : Fin 4096) : Fin 768 → EReal :=
  fun k => x (ix3 b s k) + p (ix2 s k)

/-- The result with each row's variance from its moments. -/
def out (x : (⟨3, ![4, 4096, 768]⟩ : Shape).Idx → EReal) (p : (⟨2, ![4096, 768]⟩ : Shape).Idx → EReal)
    (g h : (⟨1, ![768]⟩ : Shape).Idx → EReal) : (⟨3, ![4, 4096, 768]⟩ : Shape).Idx → EReal :=
  fun i => LayerNorm.byMoments (((1 / ((768 : Nat) : ℝ) : ℝ)) : EReal) eps (row x p (i 0) (i 1)) (i 2) * g (ix1 (i 2)) + h (ix1 (i 2))

/-- The result with each row's variance from the squared deviations. -/
def outDev (x : (⟨3, ![4, 4096, 768]⟩ : Shape).Idx → EReal) (p : (⟨2, ![4096, 768]⟩ : Shape).Idx → EReal)
    (g h : (⟨1, ![768]⟩ : Shape).Idx → EReal) : (⟨3, ![4, 4096, 768]⟩ : Shape).Idx → EReal :=
  fun i => LayerNorm.byDeviations (Ideal.ofBits .f32 0x00000000#32) (Ideal.ofBits .f32 0x44400000#32) eps
      (row x p (i 0) (i 1)) (i 2) * g (ix1 (i 2)) + h (ix1 (i 2))

/-- The word `768.0` denotes the real 768. -/
theorem ofBits_768 : Ideal.ofBits .f32 0x44400000#32 = ((((768 : Nat) : ℝ)) : EReal) := by
  simp [Ideal.ofBits, Ideal.ieee, -EReal.coe_mul]; norm_num

/-- WHERE INPUT AND POSITION TABLE ARE REAL the two are one function: each row of the sum is real, so its two
    variances agree (`LayerNorm.byDeviations_eq_byMoments`). The scale and the shift may be anything. -/
theorem outDev_eq_out (x : (⟨3, ![4, 4096, 768]⟩ : Shape).Idx → EReal) (p : (⟨2, ![4096, 768]⟩ : Shape).Idx → EReal)
    (g h : (⟨1, ![768]⟩ : Shape).Idx → EReal)
    (hx : ∀ i, ∃ r : ℝ, x i = (r : EReal)) (hp : ∀ i, ∃ r : ℝ, p i = (r : EReal)) :
    outDev x p g h = out x p g h := by
  funext i
  unfold outDev out
  rw [Ideal.ofBits_zero_f32, ofBits_768,
    LayerNorm.byDeviations_eq_byMoments (by norm_num) eps (row x p (i 0) (i 1)) (fun k => ?_) (i 2)]
  obtain ⟨u, hu⟩ := hx (ix3 (i 0) (i 1) k)
  obtain ⟨v, hv⟩ := hp (ix2 (i 1) k)
  exact ⟨u + v, by unfold row; rw [hu, hv, EReal.coe_add]⟩

end Cert.Spec

end
-- ==== Proof.KernelBlock.lean ====
/-
  What the kernel body leaves in its output block, entry by entry, at the ideal values.

  At a grid point the body holds a `[4, 512, 768]` block `P0` of the input, the matching `[1, 512, 768]` block `P1` of
  the position table, and the whole scale `P2` and shift `P3` as `[1, 1, 768]`. Row `(b, r)` of the block sum is
  `k ↦ P0 (b, r, k) + P1 (0, r, k)`. The body sums each row and each row's squares along the lanes, takes the mean and
  the mean square as products with the constant named `1/768`, and stores
  `(x − mean) · rsqrt (meansq − mean² + ε) · P2 (0, 0, w) + P3 (0, 0, w)`: the row normalised by its moments.
-/
import proofs.«123902_g26903675142355_cont_9to1_122_16_alg».proof.Proof.Gen.KernelIdeal.Value
import proofs.«123902_g26903675142355_cont_9to1_122_16_alg».proof.Proof.Spec
import Idealize.ShloMosaic.Lib.Pipeline.Value
import Idealize.ShloMosaic.Lib.ValueIdx
import Idealize.ShloMosaic.PureOps.Ideal.Laws
import Idealize.ShloMosaic.PureOps.IdealRules

noncomputable section

namespace Cert.KernelBlock

open Cert.KernelIdeal Cert.KernelIdeal.Gen Idealize.ShloMosaic Idealize.ShloMosaic.ValueIdx

variable (P0 : FVec Ideal S4x512x768 .f32) (P1 : FVec Ideal S1x512x768 .f32) (P2 P3 : FVec Ideal S1x1x768 .f32)

/-- Row `(b, r)` of input block plus position block. -/
def brow (b : Fin 4) (r : Fin 512) : Fin 768 → EReal := fun k => P0 (ix3 b r k) + P1 (ix3 (0 : Fin 1) r k)

/-- The position block broadcast over the batch, at `(b, r, k)`: its entry `(0, r, k)`. -/
theorem posBcast_apply (b : Fin 4) (r : Fin 512) (k : Fin 768) :
    (broadcastTo S4x512x768 (shapeCast S1x512x768 P1 shapeCasts_S1x512x768_S1x512x768) broadcasts_S1x512x768_S4x512x768) (ix3 b r k)
      = P1 (ix3 (0 : Fin 1) r k) := by
  refine (broadcastTo_apply _ _ (ix3 b r k) (ix3 (0 : Fin 1) r k) (fun a => match a with
    | ⟨0, _⟩ => by show 0 = (if (1 : Nat) = 1 then 0 else b.val); rw [if_pos rfl]
    | ⟨1, _⟩ => by show r.val = (if (512 : Nat) = 1 then 0 else r.val); rw [if_neg (by decide)]
    | ⟨2, _⟩ => by show k.val = (if (768 : Nat) = 1 then 0 else k.val); rw [if_neg (by decide)])).trans ?_
  exact shapeCast_apply _ _ (ix3 (0 : Fin 1) r k) (ix3 (0 : Fin 1) r k) rfl

/-- The block sum at `(b, r, k)`. -/
theorem blockSum_apply (b : Fin 4) (r : Fin 512) (k : Fin 768) :
    (addf (F := Ideal) P0 (broadcastTo S4x512x768 (shapeCast S1x512x768 P1 shapeCasts_S1x512x768_S1x512x768) broadcasts_S1x512x768_S4x512x768)) (ix3 b r k)
      = brow P0 P1 b r k := by
  show P0 (ix3 b r k) + _ = _
  rw [posBcast_apply]
  rfl

/-- The lane sum of row `(b, r)`. -/
theorem rowSum_apply (b : Fin 4) (r : Fin 512) :
    (multiReduction (F := Ideal) .add [2] S4x512 (addf (F := Ideal) P0 (broadcastTo S4x512x768 (shapeCast S1x512x768 P1 shapeCasts_S1x512x768_S1x512x768) broadcasts_S1x512x768_S4x512x768)) 0x00000000#32 reduces_S4x512x768_S4x512 (.inl rfl) rfl) (ix2 b r)
      = ∑ k : Fin 768, brow P0 P1 b r k := by
  refine (Ideal.multiReduction_add_single _ _ reduces_S4x512x768_S4x512 (.inl rfl) rfl (ix2 b r)).trans ?_
  refine Finset.sum_congr rfl fun k _ => ?_
  rw [show reduces_S4x512x768_S4x512.lift (ix2 b r) k = ix3 b r k from
    funext fun a => Fin.ext (by match a with | ⟨0, _⟩ => rfl | ⟨1, _⟩ => rfl | ⟨2, _⟩ => rfl)]
  exact blockSum_apply P0 P1 b r k

/-- The lane sum of the squares of row `(b, r)`. -/
theorem sqSum_apply (b : Fin 4) (r : Fin 512) :
    (multiReduction (F := Ideal) .add [2] S4x512 (mulf (F := Ideal) (addf (F := Ideal) P0 (broadcastTo S4x512x768 (shapeCast S1x512x768 P1 shapeCasts_S1x512x768_S1x512x768) broadcasts_S1x512x768_S4x512x768)) (addf (F := Ideal) P0 (broadcastTo S4x512x768 (shapeCast S1x512x768 P1 shapeCasts_S1x512x768_S1x512x768) broadcasts_S1x512x768_S4x512x768))) 0x00000000#32 reduces_S4x512x768_S4x512 (.inl rfl) rfl) (ix2 b r)
      = ∑ k : Fin 768, brow P0 P1 b r k * brow P0 P1 b r k := by
  refine (Ideal.multiReduction_add_single _ _ reduces_S4x512x768_S4x512 (.inl rfl) rfl (ix2 b r)).trans ?_
  refine Finset.sum_congr rfl fun k _ => ?_
  rw [show reduces_S4x512x768_S4x512.lift (ix2 b r) k = ix3 b r k from
    funext fun a => Fin.ext (by match a with | ⟨0, _⟩ => rfl | ⟨1, _⟩ => rfl | ⟨2, _⟩ => rfl)]
  exact congrArg₂ (· * ·) (blockSum_apply P0 P1 b r k) (blockSum_apply P0 P1 b r k)

/-- The named constant is the rational `1/768` at the ideal values. -/
theorem inv_768 : Named.named (F := Ideal) κ "inv_768" (φ := .f32) 0x3AAAAAAB#32 = (((1 / ((768 : Nat) : ℝ) : ℝ)) : EReal) :=
  (IdealRules.named_const.ideal_named_scalar κ "inv_768" _ _ rfl).trans (by norm_num)

/-- THE BLOCK at `(b, r, w)`: row `(b, r)` normalised by its moments, read at `w`, scaled and shifted. -/
theorem block_apply (b : Fin 4) (r : Fin 512) (w : Fin 768) :
    Value.E4 (F := Ideal) P0 P1 P2 P3 (ix3 b r w)
      = LayerNorm.byMoments (((1 / ((768 : Nat) : ℝ) : ℝ)) : EReal) Spec.eps (brow P0 P1 b r) w
          * P2 (ix3 (0 : Fin 1) (0 : Fin 1) w) + P3 (ix3 (0 : Fin 1) (0 : Fin 1) w) := by
  have i0 : Value.ix4_0 (ix3 b r w) = ix3 b r w :=
    funext fun a => Fin.ext (by match a with | ⟨0, _⟩ => rfl | ⟨1, _⟩ => rfl | ⟨2, _⟩ => rfl)
  have i1 : Value.ix4_1 (ix3 b r w) = ix3 (0 : Fin 1) r w :=
    funext fun a => Fin.ext (by match a with | ⟨0, _⟩ => rfl | ⟨1, _⟩ => rfl | ⟨2, _⟩ => rfl)
  have i2 : Value.ix4_2 (ix3 b r w) = ix2 b r :=
    funext fun a => Fin.ext (by match a with | ⟨0, _⟩ => rfl | ⟨1, _⟩ => rfl)
  have i3 : Value.ix4_3 (ix3 b r w) = ix2 b r :=
    funext fun a => Fin.ext (by match a with | ⟨0, _⟩ => rfl | ⟨1, _⟩ => rfl)
  have i4 : Value.ix4_4 (ix3 b r w) = ix2 b r :=
    funext fun a => Fin.ext (by match a with | ⟨0, _⟩ => rfl | ⟨1, _⟩ => rfl)
  have i5 : Value.ix4_5 (ix3 b r w) = ix2 b r :=
    funext fun a => Fin.ext (by match a with | ⟨0, _⟩ => rfl | ⟨1, _⟩ => rfl)
  have i6 : Value.ix4_6 (ix3 b r w) = ix3 (0 : Fin 1) (0 : Fin 1) w :=
    funext fun a => Fin.ext (by match a with | ⟨0, _⟩ => rfl | ⟨1, _⟩ => rfl | ⟨2, _⟩ => rfl)
  have i7 : Value.ix4_7 (ix3 b r w) = ix3 (0 : Fin 1) (0 : Fin 1) w :=
    funext fun a => Fin.ext (by match a with | ⟨0, _⟩ => rfl | ⟨1, _⟩ => rfl | ⟨2, _⟩ => rfl)
  unfold Value.E4
  rw [i0, i1, i2, i3, i4, i5, i6, i7, rowSum_apply, sqSum_apply, inv_768]
  rfl

end Cert.KernelBlock

end
-- ==== Proof.KernelArray.lean ====
/-
  From the blocks to the whole array: after the run the kernel's result array is `Spec.out` of the arguments.

  The grid has 8 points. Point `t` stages rows `512·t … 512·t + 511` of every batch of the input and of the position
  table (which @main reshaped to `[1, 4096, 768]` first), the whole scale and shift (reshaped to `[1, 1, 768]`), and
  writes back rows `512·t … 512·t + 511` of every batch of the result. A row of the result depends on the same row
  of the input and of the table only, so the block a point writes is the restriction of ONE array, `Spec.out` of the
  arguments, to the point's rows; the 8 blocks tile the array.
-/
import proofs.«123902_g26903675142355_cont_9to1_122_16_alg».proof.Proof.KernelBlock
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelArray

open Cert.KernelIdeal Cert.KernelIdeal.Gen

variable (m : (ℓ : Loc nD τ sig) → Buf (Elt Ideal) ℓ) (ρ : Dev nD → PrngReg)

theorem hz : (![0, 0, 0] : Fin 3 → Nat) = fun _ => 0 := funext fun a => by fin_cases a <;> rfl

/-- The result array both programs are compared at: `Spec.out` of the four arguments as launched. -/
abbrev result (c : Dev nD) : S4x4096x768.Idx → EReal :=
  Spec.out (m ((c : Thread nD τ).loc main_arg0)) (m ((c : Thread nD τ).loc main_arg1))
    (m ((c : Thread nD τ).loc main_arg2)) (m ((c : Thread nD τ).loc main_arg3))

/-! ## What the body leaves, over any blocks -/

/-- The body's output block at `j`, as the row `(j 0, j 1)` of its input blocks normalised by its moments. -/
theorem body_apply (x0 : FVec Ideal S4x512x768 .f32) (x1 : FVec Ideal S1x512x768 .f32) (x2 x3 : FVec Ideal S1x1x768 .f32)
    (j : S4x512x768.Idx) :
    out0_4 (F := Ideal) x0 x1 x2 x3 j
      = LayerNorm.byMoments (((1 / ((768 : Nat) : ℝ) : ℝ)) : EReal) Spec.eps (KernelBlock.brow x0 x1 (j 0) (j 1)) (j 2)
          * x2 (ix3 (0 : Fin 1) (0 : Fin 1) (j 2)) + x3 (ix3 (0 : Fin 1) (0 : Fin 1) (j 2)) := by
  unfold out0_4
  rw [View.ld_unit_zero (S := S4x512x768) hz, View.ld_unit_zero (S := S1x512x768) hz, View.ld_unit_zero (S := S1x1x768) hz,
    View.ld_unit_zero (S := S1x1x768) hz]
  exact (Value.canon4_eq (F := Ideal) x0 x1 x2 x3 j).trans
    ((congrArg (Value.E4 (F := Ideal) x0 x1 x2 x3) (eq_ix3 j)).trans (KernelBlock.block_apply x0 x1 x2 x3 (j 0) (j 1) (j 2)))

/-! ## The index maps over the grid -/

/-- The printed index maps, decided over the 8 points: the input and the position table move with the result along
    the row axis only, the scale and the shift stay, and the result's row-block index is below 8. -/
theorem idx_facts : ∀ t : Fin cfg0.N,
    win0_0.index t (0 : Fin 3) = 0 ∧ win0_0.index t (1 : Fin 3) = win0_4.index t (1 : Fin 3) ∧ win0_0.index t (2 : Fin 3) = 0
    ∧ win0_1.index t (0 : Fin 3) = 0 ∧ win0_1.index t (1 : Fin 3) = win0_4.index t (1 : Fin 3) ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 3) = 0 ∧ win0_4.index t (2 : Fin 3) = 0 ∧ win0_4.index t (1 : Fin 3) ≤ 7 :=
  (by decide +kernel : ∀ t : Fin grid0.N, _)

/-- Every row block is some point's. -/
theorem idx_onto : ∀ q : Fin 8, ∃ t : Fin cfg0.N, win0_4.index t = ![0, q.val, 0] :=
  (by decide +kernel : ∀ q : Fin 8, ∃ t : Fin grid0.N, win0_4.index t = ![0, q.val, 0])

/-! ## The arrays the region finds -/

/-- The position table as the region finds it, reshaped to `[1, 4096, 768]`: entry `(0, s, k)` is the table's `(s, k)`. -/
theorem V_pos (c : Dev nD) (s : Fin 4096) (k : Fin 768) :
    (V m c main_v2 : S1x4096x768.Idx → EReal) (ix3 (0 : Fin 1) s k)
      = (m ((c : Thread nD τ).loc main_arg1) : S4096x768.Idx → EReal) (ix2 s k) := by
  have e : (V m c main_v2 : S1x4096x768.Idx → EReal)
      = shapeCast S1x4096x768 (m ((c : Thread nD τ).loc main_arg1)) shapeCasts_S4096x768_S1x4096x768 := by
    dsimp only [Gen.V, Gen.hostOps0]; after_results; rfl
  rw [e]
  exact shapeCast_apply _ _ _ _ (by
    show (S4096x768.rowMajor (ix2 s k)).val = (S1x4096x768.rowMajor (ix3 (0 : Fin 1) s k)).val
    rw [Shape.rowMajor_val_two, Shape.rowMajor_val_three]
    show s.val * 768 + k.val = ((0 : Nat) * 4096 + s.val) * 768 + k.val
    omega)

/-- The scale as the region finds it, reshaped to `[1, 1, 768]`: entry `(0, 0, w)` is the scale's `w`. -/
theorem V_scale (c : Dev nD) (w : Fin 768) :
    (V m c main_v0 : S1x1x768.Idx → EReal) (ix3 (0 : Fin 1) (0 : Fin 1) w)
      = (m ((c : Thread nD τ).loc main_arg2) : S768.Idx → EReal) (ix1 w) := by
  have e : (V m c main_v0 : S1x1x768.Idx → EReal)
      = shapeCast S1x1x768 (m ((c : Thread nD τ).loc main_arg2)) shapeCasts_S768_S1x1x768 := by
    dsimp only [Gen.V, Gen.hostOps0]; after_results; rfl
  rw [e]
  exact shapeCast_apply _ _ _ _ (by
    show (S768.rowMajor (ix1 w)).val = (S1x1x768.rowMajor (ix3 (0 : Fin 1) (0 : Fin 1) w)).val
    rw [Shape.rowMajor_val_one, Shape.rowMajor_val_three]
    show w.val = ((0 : Nat) * 1 + 0) * 768 + w.val
    omega)

/-- The shift as the region finds it, reshaped to `[1, 1, 768]`: entry `(0, 0, w)` is the shift's `w`. -/
theorem V_shift (c : Dev nD) (w : Fin 768) :
    (V m c main_v1 : S1x1x768.Idx → EReal) (ix3 (0 : Fin 1) (0 : Fin 1) w)
      = (m ((c : Thread nD τ).loc main_arg3) : S768.Idx → EReal) (ix1 w) := by
  have e : (V m c main_v1 : S1x1x768.Idx → EReal)
      = shapeCast S1x1x768 (m ((c : Thread nD τ).loc main_arg3)) shapeCasts_S768_S1x1x768 := by
    dsimp only [Gen.V, Gen.hostOps0]; after_results; rfl
  rw [e]
  exact shapeCast_apply _ _ _ _ (by
    show (S768.rowMajor (ix1 w)).val = (S1x1x768.rowMajor (ix3 (0 : Fin 1) (0 : Fin 1) w)).val
    rw [Shape.rowMajor_val_one, Shape.rowMajor_val_three]
    show w.val = ((0 : Nat) * 1 + 0) * 768 + w.val
    omega)

/-! ## Each window's block at a point, read off the arguments -/

/-- The input's block at point `t`: row `r` of the block is row `s = 512 · (t's row block) + r` of the input. -/
theorem inBlock_apply (c : Dev nD) (t : Fin cfg0.N) (b : Fin 4) (r : Fin 512) (k : Fin 768) (s : Fin 4096)
    (hs : s.val = win0_4.index t (1 : Fin 3) * 512 + r.val) :
    (iblk m c 0 t : FVec Ideal S4x512x768 .f32) (ix3 b r k)
      = (m ((c : Thread nD τ).loc main_arg0) : S4x4096x768.Idx → EReal) (ix3 b s k) := by
  obtain ⟨e0, e1, e2, -⟩ := idx_facts t
  unfold iblk
  rw [View.read_apply]
  show V m c main_arg0 _ = _
  rw [V_main_arg0]
  congr 1
  funext a
  apply Fin.ext
  match a with
  | ⟨0, _⟩ => show win0_0.index t (0 : Fin 3) * 4 + 1 * b.val = b.val; omega
  | ⟨1, _⟩ => show win0_0.index t (1 : Fin 3) * 512 + 1 * r.val = s.val; omega
  | ⟨2, _⟩ => show win0_0.index t (2 : Fin 3) * 768 + 1 * k.val = k.val; omega

/-- The position table's block at point `t`: its row `r` is row `s` of the table. -/
theorem posBlock_apply (c : Dev nD) (t : Fin cfg0.N) (r : Fin 512) (k : Fin 768) (s : Fin 4096)
    (hs : s.val = win0_4.index t (1 : Fin 3) * 512 + r.val) :
    (iblk m c 1 t : FVec Ideal S1x512x768 .f32) (ix3 (0 : Fin 1) r k)
      = (m ((c : Thread nD τ).loc main_arg1) : S4096x768.Idx → EReal) (ix2 s k) := by
  obtain ⟨-, -, -, e0, e1, e2, -⟩ := idx_facts t
  unfold iblk
  rw [View.read_apply]
  show V m c main_v2 _ = _
  refine Eq.trans (congrArg (V m c main_v2 : S1x4096x768.Idx → EReal) ?_) (V_pos m c s k)
  funext a
  apply Fin.ext
  match a with
  | ⟨0, _⟩ => show win0_1.index t (0 : Fin 3) * 1 + 1 * 0 = 0; omega
  | ⟨1, _⟩ => show win0_1.index t (1 : Fin 3) * 512 + 1 * r.val = s.val; omega
  | ⟨2, _⟩ => show win0_1.index t (2 : Fin 3) * 768 + 1 * k.val = k.val; omega

/-- The scale's block at any point is the whole scale. -/
theorem scaleBlock_apply (c : Dev nD) (t : Fin cfg0.N) (w : Fin 768) :
    (iblk m c 2 t : FVec Ideal S1x1x768 .f32) (ix3 (0 : Fin 1) (0 : Fin 1) w)
      = (m ((c : Thread nD τ).loc main_arg2) : S768.Idx → EReal) (ix1 w) := by
  obtain ⟨-, -, -, -, -, -, e0, e1, e2, -⟩ := idx_facts t
  unfold iblk
  rw [View.read_apply]
  show V m c main_v0 _ = _
  refine Eq.trans (congrArg (V m c main_v0 : S1x1x768.Idx → EReal) ?_) (V_scale m c w)
  funext a
  apply Fin.ext
  match a with
  | ⟨0, _⟩ => show win0_2.index t (0 : Fin 3) * 1 + 1 * 0 = 0; omega
  | ⟨1, _⟩ => show win0_2.index t (1 : Fin 3) * 1 + 1 * 0 = 0; omega
  | ⟨2, _⟩ => show win0_2.index t (2 : Fin 3) * 768 + 1 * w.val = w.val; omega

/-- The shift's block at any point is the whole shift. -/
theorem shiftBlock_apply (c : Dev nD) (t : Fin cfg0.N) (w : Fin 768) :
    (iblk m c 3 t : FVec Ideal S1x1x768 .f32) (ix3 (0 : Fin 1) (0 : Fin 1) w)
      = (m ((c : Thread nD τ).loc main_arg3) : S768.Idx → EReal) (ix1 w) := by
  obtain ⟨-, -, -, -, -, -, -, -, -, e0, e1, e2, -⟩ := idx_facts t
  unfold iblk
  rw [View.read_apply]
  show V m c main_v1 _ = _
  refine Eq.trans (congrArg (V m c main_v1 : S1x1x768.Idx → EReal) ?_) (V_shift m c w)
  funext a
  apply Fin.ext
  match a with
  | ⟨0, _⟩ => show win0_3.index t (0 : Fin 3) * 1 + 1 * 0 = 0; omega
  | ⟨1, _⟩ => show win0_3.index t (1 : Fin 3) * 1 + 1 * 0 = 0; omega
  | ⟨2, _⟩ => show win0_3.index t (2 : Fin 3) * 768 + 1 * w.val = w.val; omega

/-! ## What a point writes back -/

/-- `Spec.out` at an index given by its coordinates. -/
theorem out_at (x : S4x4096x768.Idx → EReal) (p : S4096x768.Idx → EReal) (g h : S768.Idx → EReal)
    (i : S4x4096x768.Idx) (b : Fin 4) (s : Fin 4096) (w : Fin 768) (hi : i = ix3 b s w) :
    Spec.out x p g h i
      = LayerNorm.byMoments (((1 / ((768 : Nat) : ℝ) : ℝ)) : EReal) Spec.eps (Spec.row x p b s) w * g (ix1 w) + h (ix1 w) := by
  subst hi; rfl

/-- WHAT POINT `t` WRITES BACK is block `t` of the result array. -/
theorem flushed_eq (c : Dev nD) (t : Fin cfg0.N) :
    (dats m 0 c).flushed 4 t = ((cfg0.win 4).blk t).view.read (Elt Ideal) (result m c) := by
  rw [Value.flushed4]
  obtain ⟨-, -, -, -, -, -, -, -, -, -, -, -, e0, e2, e1⟩ := idx_facts t
  funext j
  have hj0 : (j 0).val < 4 := (j 0).isLt
  have hj1 : (j 1).val < 512 := (j 1).isLt
  have hj2 : (j 2).val < 768 := (j 2).isLt
  show out0_4 (F := Ideal) (iblk m c 0 t) (iblk m c 1 t) (iblk m c 2 t) (iblk m c 3 t) j
    = result m c (((cfg0.win 4).blk t).view.emb j)
  refine (body_apply (iblk m c 0 t) (iblk m c 1 t) (iblk m c 2 t) (iblk m c 3 t) j).trans ?_
  have hs : win0_4.index t (1 : Fin 3) * 512 + (j 1).val < 4096 := by omega
  refine Eq.trans ?_ (out_at _ _ _ _ (((cfg0.win 4).blk t).view.emb j) (j 0) ⟨_, hs⟩ (j 2) (funext fun a => Fin.ext (by
    match a with
    | ⟨0, _⟩ => show win0_4.index t (0 : Fin 3) * 4 + 1 * (j 0).val = (j 0).val; omega
    | ⟨1, _⟩ => show win0_4.index t (1 : Fin 3) * 512 + 1 * (j 1).val = win0_4.index t (1 : Fin 3) * 512 + (j 1).val; omega
    | ⟨2, _⟩ => show win0_4.index t (2 : Fin 3) * 768 + 1 * (j 2).val = (j 2).val; omega))).symm
  have hrow : KernelBlock.brow (iblk m c 0 t) (iblk m c 1 t) (j 0) (j 1)
      = Spec.row (m ((c : Thread nD τ).loc main_arg0)) (m ((c : Thread nD τ).loc main_arg1)) (j 0) ⟨_, hs⟩ :=
    funext fun k => congrArg₂ (· + ·) (inBlock_apply m c t (j 0) (j 1) k ⟨_, hs⟩ rfl) (posBlock_apply m c t (j 1) k ⟨_, hs⟩ rfl)
  rw [hrow, scaleBlock_apply m c t (j 2), shiftBlock_apply m c t (j 2)]

/-! ## The blocks tile the array -/

/-- An index of the array is in point `t`'s block iff each coordinate is in the block's range on its axis. -/
theorem mem_blk (t : Fin cfg0.N) (i : S4x4096x768.Idx) :
    i ∈ ((cfg0.win 4).blk t).view.set ↔ ∀ a : Fin 3, win0_4.index t a * S4x512x768.size a ≤ (i a).val ∧ (i a).val < win0_4.index t a * S4x512x768.size a + S4x512x768.size a := by
  show i ∈ ((View.whole main_v3).slice (win0_4.rect t)).set ↔ _
  rw [View.set_slice_whole, Rect.mem_set_unit]
  exact Iff.rfl

/-- Every index is in the block of the point whose row block is `(i 1) / 512`. -/
theorem cover (i : S4x4096x768.Idx) : ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 768 := (i 2).isLt
  obtain ⟨t, ht⟩ := idx_onto ⟨(i 1).val / 512, by omega⟩
  have q0 : win0_4.index t (0 : Fin 3) = 0 := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 4 ≤ (i 0).val ∧ (i 0).val < win0_4.index t (0 : Fin 3) * 4 + 4; omega
  | ⟨1, _⟩ => show win0_4.index t (1 : Fin 3) * 512 ≤ (i 1).val ∧ (i 1).val < win0_4.index t (1 : Fin 3) * 512 + 512; omega
  | ⟨2, _⟩ => show win0_4.index t (2 : Fin 3) * 768 ≤ (i 2).val ∧ (i 2).val < win0_4.index t (2 : Fin 3) * 768 + 768; omega

/-- THE ARRAY after the run is the result array. -/
theorem final (c : Dev nD) : (dats m 0 c).arrAt 4 cfg0.N = result m c :=
  (dats m 0 c).arrAt_eq_of_cover 4 (result m c) (fun t _ => flushed_eq m c t) cover

/-- The kernel's run, read: the result buffer ends at `Spec.out` of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelArray

end
-- ==== Proof.RefSide.lean ====
/-
  The reference's result is `Spec.outDev` of its arguments, entry by entry.

  The reference adds the position table (sliced whole, then broadcast over the batch) to the input, takes each row's
  mean as the host sum from the zero word divided by the word 768.0, the variance as the mean of the squared
  deviations taken the same way, and returns `(x − mean) · rsqrt (variance + ε) · g + h`. Every stage below is read at
  explicit coordinates `(b, s, w)`; each layout step moves the coordinates, each arithmetic step is the operation on
  the extended reals.
-/
import proofs.«123902_g26903675142355_cont_9to1_122_16_alg».proof.Proof.Gen.ReferenceIdeal.Read
import proofs.«123902_g26903675142355_cont_9to1_122_16_alg».proof.Proof.Spec

noncomputable section

namespace Cert.RefSide

open Cert.ReferenceIdeal Cert.ReferenceIdeal.Read Idealize.ShloMosaic Idealize.ShloMosaic.ValueIdx

variable (x0 : FVec Ideal S4x4096x768 .f32) (x1 : FVec Ideal S4096x768 .f32) (x2 x3 : FVec Ideal S768 .f32)

/-- The zero word a host sum is started from, and the divisor word. -/
abbrev zw : EReal := Ideal.ofBits .f32 0x00000000#32
abbrev dw : EReal := Ideal.ofBits .f32 0x44400000#32

/-- Input plus position table at `(b, s, k)`: the table's row `s`, whatever the batch `b`. -/
theorem sum_apply (b : Fin 4) (s : Fin 4096) (k : Fin 768) :
    val_main_v3 (F := Ideal) x0 x1 (ix3 b s k) = Spec.row x0 x1 b s k := by
  rw [val_main_v3_apply, val_main_v2_apply, val_main_v1_apply, val_main_v0_apply]
  exact congrArg (fun t => x0 (ix3 b s k) + x1 t)
    (funext fun a => Fin.ext (by match a with | ⟨0, _⟩ => rfl | ⟨1, _⟩ => rfl))

/-- The row sum at `(b, s)`. -/
theorem rowSum_apply (b : Fin 4) (s : Fin 4096) :
    val_main_v4 (F := Ideal) x0 x1 (ix2 b s) = zw + ∑ k : Fin 768, Spec.row x0 x1 b s k := by
  rw [val_main_v4_apply, val_main_cst_apply]
  refine congrArg (Ideal.ofBits .f32 0x00000000#32 + ·) (Finset.sum_congr rfl fun k _ => ?_)
  rw [show idx_main_v4 (ix2 b s) k = ix3 b s k from
    funext fun a => Fin.ext (by match a with | ⟨0, _⟩ => rfl | ⟨1, _⟩ => rfl | ⟨2, _⟩ => rfl)]
  exact sum_apply x0 x1 b s k

/-- The row mean, kept as a column: at `(b, s, 0)`. -/
theorem mean_apply (b : Fin 4) (s : Fin 4096) (u : Fin 1) :
    val_main_v7 (F := Ideal) x0 x1 (ix3 b s u) = Ideal.div (zw + ∑ k : Fin 768, Spec.row x0 x1 b s k) dw := by
  rw [val_main_v7_apply, val_main_v5_apply, val_main_v6_apply, val_main_cst_0_apply,
    show idx_main_v5 (ix3 b s u) = ix2 b s from
      funext fun a => Fin.ext (by match a with | ⟨0, _⟩ => rfl | ⟨1, _⟩ => rfl),
    rowSum_apply]
  rfl

/-- The centred entry at `(b, s, k)` (the copy the variance is taken from). -/
theorem centred_apply (b : Fin 4) (s : Fin 4096) (k : Fin 768) :
    val_main_v9 (F := Ideal) x0 x1 (ix3 b s k)
      = Spec.row x0 x1 b s k - Ideal.div (zw + ∑ j : Fin 768, Spec.row x0 x1 b s j) dw := by
  rw [val_main_v9_apply, val_main_v8_apply, sum_apply,
    show idx_main_v8 (ix3 b s k) = ix3 b s (0 : Fin 1) from
      funext fun a => Fin.ext (by match a with | ⟨0, _⟩ => rfl | ⟨1, _⟩ => rfl | ⟨2, _⟩ => rfl),
    mean_apply]
  rfl

/-- The centred entry at `(b, s, k)` (the copy that is scaled). -/
theorem centred'_apply (b : Fin 4) (s : Fin 4096) (k : Fin 768) :
    val_main_v16 (F := Ideal) x0 x1 (ix3 b s k)
      = Spec.row x0 x1 b s k - Ideal.div (zw + ∑ j : Fin 768, Spec.row x0 x1 b s j) dw := by
  rw [val_main_v16_apply, val_main_v15_apply, sum_apply,
    show idx_main_v15 (ix3 b s k) = ix3 b s (0 : Fin 1) from
      funext fun a => Fin.ext (by match a with | ⟨0, _⟩ => rfl | ⟨1, _⟩ => rfl | ⟨2, _⟩ => rfl),
    mean_apply]
  rfl

/-- The sum of the squared deviations of row `(b, s)`. -/
theorem devSum_apply (b : Fin 4) (s : Fin 4096) :
    val_main_v11 (F := Ideal) x0 x1 (ix2 b s)
      = zw + ∑ k : Fin 768, (Spec.row x0 x1 b s k - Ideal.div (zw + ∑ j : Fin 768, Spec.row x0 x1 b s j) dw)
          * (Spec.row x0 x1 b s k - Ideal.div (zw + ∑ j : Fin 768, Spec.row x0 x1 b s j) dw) := by
  rw [val_main_v11_apply, val_main_cst_1_apply]
  refine congrArg (Ideal.ofBits .f32 0x00000000#32 + ·) (Finset.sum_congr rfl fun k _ => ?_)
  rw [show idx_main_v11 (ix2 b s) k = ix3 b s k from
    funext fun a => Fin.ext (by match a with | ⟨0, _⟩ => rfl | ⟨1, _⟩ => rfl | ⟨2, _⟩ => rfl),
    val_main_v10_apply, centred_apply]
  rfl

/-- The reciprocal standard deviation of row `(b, s)`, kept as a column. -/
theorem rstd_apply (b : Fin 4) (s : Fin 4096) (u : Fin 1) :
    val_main_v19 (F := Ideal) x0 x1 (ix3 b s u)
      = Ideal.rsqrt (Ideal.div (zw + ∑ k : Fin 768, (Spec.row x0 x1 b s k - Ideal.div (zw + ∑ j : Fin 768, Spec.row x0 x1 b s j) dw)
          * (Spec.row x0 x1 b s k - Ideal.div (zw + ∑ j : Fin 768, Spec.row x0 x1 b s j) dw)) dw + Spec.eps) := by
  rw [val_main_v19_apply, val_main_v18_apply, val_main_v14_apply, val_main_v12_apply, val_main_v13_apply,
    val_main_cst_2_apply, val_main_v17_apply, val_main_cst_3_apply,
    show idx_main_v12 (ix3 b s u) = ix2 b s from
      funext fun a => Fin.ext (by match a with | ⟨0, _⟩ => rfl | ⟨1, _⟩ => rfl),
    devSum_apply]
  rfl

/-- THE REFERENCE'S RESULT at `(b, s, w)`. -/
theorem result_apply (b : Fin 4) (s : Fin 4096) (w : Fin 768) :
    val_main_v27 (F := Ideal) x0 x1 x2 x3 (ix3 b s w) = Spec.outDev x0 x1 x2 x3 (ix3 b s w) := by
  rw [val_main_v27_apply, val_main_v24_apply, val_main_v21_apply, val_main_v20_apply, val_main_v23_apply,
    val_main_v22_apply, val_main_v26_apply, val_main_v25_apply, centred'_apply,
    show idx_main_v20 (ix3 b s w) = ix3 b s (0 : Fin 1) from
      funext fun a => Fin.ext (by match a with | ⟨0, _⟩ => rfl | ⟨1, _⟩ => rfl | ⟨2, _⟩ => rfl),
    rstd_apply,
    show idx_main_v22 (idx_main_v23 (ix3 b s w)) = ix1 w from
      funext fun a => Fin.ext (by match a with | ⟨0, _⟩ => rfl),
    show idx_main_v25 (idx_main_v26 (ix3 b s w)) = ix1 w from
      funext fun a => Fin.ext (by match a with | ⟨0, _⟩ => rfl)]
  rfl

/-- So the reference's result array is `Spec.outDev` of its arguments. -/
theorem result_eq : val_main_v27 (F := Ideal) x0 x1 x2 x3 = Spec.outDev x0 x1 x2 x3 := by
  funext i
  rw [eq_ix3 i]
  exact result_apply x0 x1 x2 x3 (i 0) (i 1) (i 2)

end Cert.RefSide

end
-- ==== Proof.Finite.lean ====
/-
  From the precondition to real entries.

  The precondition is `jnp.all (|a| < +∞)` of each of the four arguments, joined by `and`. Where it holds, every
  entry of the input and of the position table is a real number: an extended real whose absolute value is below
  `+∞` is neither infinity.
-/
import proofs.«123902_g26903675142355_cont_9to1_122_16_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic Cert.Pre_finite_inputs

/-- The f32 word `0x7F800000` denotes `+∞`. -/
theorem ofBits_inf : Ideal.ofBits .f32 0x7F800000#32 = ⊤ := by
  simp [Ideal.ofBits, Ideal.ieee]

/-- An extended real whose absolute value compares below the word `+∞` is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  rw [Ideal.ofBits_def, ofBits_inf, Ideal.hostAbsf_def, Ideal.cmpf_def, Ideal.absf_def] at h
  induction x using EReal.rec with
  | bot => exact absurd h (by simp [Ideal.cmp])
  | coe r => exact ⟨r, rfl⟩
  | top => exact absurd h (by simp [Ideal.cmp])

instance : Subsingleton S_.Idx := ⟨fun a b => funext fun d => d.elim0⟩

variable [Facts]

/-- WHERE THE PRECONDITION HOLDS the input's and the position table's entries are real. -/
theorem real_of_pre (a0 : FVec Ideal S4x4096x768 .f32) (a1 : FVec Ideal S4096x768 .f32) (a2 a3 : FVec Ideal S768 .f32)
    (h : fn (F := Ideal) a0 a1 a2 a3 = fun _ => 1#1) :
    (∀ i, ∃ r : ℝ, a0 i = (r : EReal)) ∧ (∀ i, ∃ r : ℝ, a1 i = (r : EReal)) := by
  have h0 := congrFun h ValueIdx.ix0
  dsimp only [fn, fn_part1] at h0
  obtain ⟨h012, -⟩ := IntOp.andi_eq_one.1 h0
  obtain ⟨h01, -⟩ := IntOp.andi_eq_one.1 h012
  obtain ⟨hx, hp⟩ := IntOp.andi_eq_one.1 h01
  exact ⟨fun i => real_of_abs_lt_inf (a0 i) (Host.reduce_andi_all _ _ _ _ _ hx i),
    fun i => real_of_abs_lt_inf (a1 i) (Host.reduce_andi_all _ _ _ _ _ hp i)⟩

end Cert.Finite

end
-- ==== Proof.lean ====
/-
  The proof of `Cert.Claim`: a fused position-embedding add and layer normalisation, as a kernel over 8 row
  blocks, against the same computation written with whole-array operations.

  Both programs form `x = input + position table` (the table's row `s` added to row `s` of every batch), normalise
  each row of 768 entries to zero mean and unit variance, `(x − mean) · rsqrt (variance + ε)`, and scale and shift by
  the two vectors. They differ in the variance: the kernel takes it from the row's moments, `mean (x²) − (mean x)²`,
  with each mean a product with the constant named `1/768`; the reference takes the mean of the squared deviations,
  `mean ((x − mean x)²)`, with each mean a quotient by 768. For a row of real numbers these are one number
  (Proof/LibLayerNorm.lean); the precondition makes the input and the table real (Proof/Finite.lean), and the scale
  and the shift need no hypothesis.

  Proof/Spec.lean states the common result entry by entry; Proof/RefSide.lean reads the reference's stages at an
  index; Proof/KernelBlock.lean reads the block the kernel body stores at an index, and Proof/KernelArray.lean shows
  that the 8 blocks written back are the restrictions of that one result array and tile it. The frames are the
  programs' runs with the result dropped; `preserves` is the naming of `1/768`, once per occurrence.
-/
import proofs.«123902_g26903675142355_cont_9to1_122_16_alg».proof.Defs
import proofs.«123902_g26903675142355_cont_9to1_122_16_alg».proof.Proof.Gen.Kernel
import proofs.«123902_g26903675142355_cont_9to1_122_16_alg».proof.Proof.Gen.Kernel.Frame
import proofs.«123902_g26903675142355_cont_9to1_122_16_alg».proof.Proof.Gen.KernelIdeal
import proofs.«123902_g26903675142355_cont_9to1_122_16_alg».proof.Proof.Gen.KernelIdeal.Frame
import proofs.«123902_g26903675142355_cont_9to1_122_16_alg».proof.Proof.Gen.ReferenceIdeal
import proofs.«123902_g26903675142355_cont_9to1_122_16_alg».proof.Proof.Gen.ReferenceIdeal.Run
import proofs.«123902_g26903675142355_cont_9to1_122_16_alg».proof.Proof.Gen.Pre_finite_inputs
import proofs.«123902_g26903675142355_cont_9to1_122_16_alg».proof.Proof.KernelArray
import proofs.«123902_g26903675142355_cont_9to1_122_16_alg».proof.Proof.RefSide
import proofs.«123902_g26903675142355_cont_9to1_122_16_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's two reciprocal constants are both the name `inv_768`, which the table gives the value `1/768`. -/
theorem preserves : Cert.preserves_Kernel_KernelIdeal :=
  ⟨IdealRules.named_const.statement Cert.KernelIdeal.κ "inv_768" .f32 0x3AAAAAAB#32 ((1 / 768 : ℝ) : EReal) rfl,
    IdealRules.named_const.statement Cert.KernelIdeal.κ "inv_768" .f32 0x3AAAAAAB#32 ((1 / 768 : ℝ) : EReal) rfl⟩

/-- Both runs end at `Spec.out` of the arguments: the kernel's by its blocks, the reference's at `Spec.outDev`, which
    is `Spec.out` where the input and the position table are real. -/
theorem algebraic : Cert.algebraic_KernelIdeal_ReferenceIdeal := by
  intro m ρ m' ρ' hpre hagree
  refine ⟨fun c => Cert.KernelArray.result m c, Cert.KernelArray.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v27_eq _ _ _ _).trans ?_
  rw [Cert.RefSide.result_eq, (hagree c).1, (hagree c).2.1, (hagree c).2.2.1, (hagree c).2.2.2]
  obtain ⟨hx, hp⟩ := Cert.Finite.real_of_pre _ _ _ _ (hpre c)
  exact Cert.Spec.outDev_eq_out _ _ _ _ hx hp

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
